-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x512 : Shape := ⟨3, ![256, 196, 512]⟩
abbrev S256x77x512 : Shape := ⟨3, ![256, 77, 512]⟩
abbrev S_ : Shape := ⟨0, ![]⟩

class Facts : Prop where
  bcast_S_S256x196x512 : S_.BroadcastsInDim S256x196x512 (![] : Fin 0 → Fin S256x196x512.rank)
  reducesTo_S256x196x512_S_d0_1_2 : S256x196x512.ReducesTo [0, 1, 2] S_
  h_S_ : 0 < S_.numel
  bcast_S_S256x77x512 : S_.BroadcastsInDim S256x77x512 (![] : Fin 0 → Fin S256x77x512.rank)
  reducesTo_S256x77x512_S_d0_1_2 : S256x77x512.ReducesTo [0, 1, 2] S_

variable [Facts]

def fn {F : FTy → Type} [FloatOps F] (main_arg0 : FVec F S256x196x512 .f32) (main_arg1 : FVec F S256x77x512 .f32) : IVec S_ 1 :=
  let main_v0 : FVec F S256x196x512 .f32 := Host.absf main_arg0
  let main_cst : FVec F S_ .f32 := constant S_ .f32 0x7F800000#32
  let main_v1 : FVec F S256x196x512 .f32 := broadcastInDim S256x196x512 ![] bcast_S_S256x196x512 main_cst
  let main_v2 : IVec S256x196x512 1 := cmpf .olt main_v0 main_v1
  let main_c : IVec S_ 1 := constantI S_ 1 1#1
  let main_v3 : IVec S_ 1 := (fun x v => Host.reduce IntOp.andi x v reducesTo_S256x196x512_S_d0_1_2 h_S_) main_v2 main_c
  let main_v4 : FVec F S256x77x512 .f32 := Host.absf main_arg1
  let main_cst_0 : FVec F S_ .f32 := constant S_ .f32 0x7F800000#32
  let main_v5 : FVec F S256x77x512 .f32 := broadcastInDim S256x77x512 ![] bcast_S_S256x77x512 main_cst_0
  let main_v6 : IVec S256x77x512 1 := cmpf .olt main_v4 main_v5
  let main_c_1 : IVec S_ 1 := constantI S_ 1 1#1
  let main_v7 : IVec S_ 1 := (fun x v => Host.reduce IntOp.andi x v reducesTo_S256x77x512_S_d0_1_2 h_S_) main_v6 main_c_1
  let main_v8 : IVec S_ 1 := andi main_v3 main_v7
  main_v8
-- ==== Kernel.lean ====
abbrev S256x196x512 : Shape := ⟨3, ![256, 196, 512]⟩
abbrev S256x77x512 : Shape := ⟨3, ![256, 77, 512]⟩
abbrev S256x512 : Shape := ⟨2, ![256, 512]⟩
abbrev S16x196x512 : Shape := ⟨3, ![16, 196, 512]⟩
abbrev S16x77x512 : Shape := ⟨3, ![16, 77, 512]⟩
abbrev S16x512 : Shape := ⟨2, ![16, 512]⟩
abbrev S16x196 : Shape := ⟨2, ![16, 196]⟩
abbrev S16x196x1 : Shape := ⟨3, ![16, 196, 1]⟩
abbrev S16x77 : Shape := ⟨2, ![16, 77]⟩
abbrev S16x77x1 : Shape := ⟨3, ![16, 77, 1]⟩
abbrev S256x256 : Shape := ⟨2, ![256, 256]⟩
abbrev S_ : Shape := ⟨0, ![]⟩
abbrev S256 : Shape := ⟨1, ![256]⟩
abbrev S256x1 : Shape := ⟨2, ![256, 1]⟩
abbrev S256x2 : Shape := ⟨2, ![256, 2]⟩

abbrev nBuf : Space → Nat
  | .hbm => 89
  | .vmem => 8
  | .smem => 0
  | _ => 0

abbrev bufTy : (tb : Table) → Fin (tcTables nBuf tb) → BufTy
  | .hbm, ⟨0, _⟩ => ⟨S256x196x512, .f32⟩
  | .hbm, ⟨1, _⟩ => ⟨S256x77x512, .f32⟩
  | .hbm, ⟨2, _⟩ => ⟨S256x512, .f32⟩
  | .hbm, ⟨3, _⟩ => ⟨S256x512, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256, .i32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S256x1, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1, .f32⟩
  | .hbm, ⟨38, _⟩ => ⟨S256x256, .f32⟩
  | .hbm, ⟨39, _⟩ => ⟨S256x256, .f32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S256x1, .i32⟩
  | .hbm, ⟨56, _⟩ => ⟨S256x2, .i32⟩
  | .hbm, ⟨57, _⟩ => ⟨S256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S256x1, .i32⟩
  | .hbm, ⟨78, _⟩ => ⟨S256x1, .i32⟩
  | .hbm, ⟨79, _⟩ => ⟨S256x2, .i32⟩
  | .hbm, ⟨80, _⟩ => ⟨S256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S16x196x512, .f32⟩
  | .local _ .vmem, ⟨1, _⟩ => ⟨S16x196x512, .f32⟩
  | .local _ .vmem, ⟨2, _⟩ => ⟨S16x77x512, .f32⟩
  | .local _ .vmem, ⟨3, _⟩ => ⟨S16x77x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S256x196x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_v6 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_v9 : Ref sig .tc := ⟨.hbm, 42, rfl⟩
abbrev main_c_0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_1 : Ref sig .tc := ⟨.hbm, 47, rfl⟩
abbrev main_v13 : Ref sig .tc := ⟨.hbm, 48, rfl⟩
abbrev main_v14 : Ref sig .tc := ⟨.hbm, 49, rfl⟩
abbrev main_c_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_3 : Ref sig .tc := ⟨.hbm, 58, rfl⟩
abbrev main_v22 : Ref sig .tc := ⟨.hbm, 59, rfl⟩
abbrev main_cst_4 : Ref sig .tc := ⟨.hbm, 60, rfl⟩
abbrev main_v23 : Ref sig .tc := ⟨.hbm, 61, rfl⟩
abbrev main_v24 : Ref sig .tc := ⟨.hbm, 62, rfl⟩
abbrev main_c_5 : Ref sig .tc := ⟨.hbm, 63, rfl⟩
abbrev main_v25 : Ref sig .tc := ⟨.hbm, 64, rfl⟩
abbrev main_v26 : Ref sig .tc := ⟨.hbm, 65, rfl⟩
abbrev main_c_6 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_7 : Ref sig .tc := ⟨.hbm, 70, rfl⟩
abbrev main_v30 : Ref sig .tc := ⟨.hbm, 71, rfl⟩
abbrev main_v31 : Ref sig .tc := ⟨.hbm, 72, rfl⟩
abbrev main_c_8 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_9 : Ref sig .tc := ⟨.hbm, 81, rfl⟩
abbrev main_v39 : Ref sig .tc := ⟨.hbm, 82, rfl⟩
abbrev main_cst_10 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_11 : Ref sig .tc := ⟨.hbm, 87, rfl⟩
abbrev main_v43 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x77x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16x196x512_S16x196x512_0_0_0 : ∀ a, (![0, 0, 0] : Fin 3 → Nat) a + S16x196x512.size a ≤ S16x196x512.size a
  h_S16x196x512 : 0 < S16x196x512.numel
  reduces_S16x196x512_S16x196 : S16x196x512.Reduces [2] S16x196
  shapeCasts_S16x196_S16x196x1 : S16x196.ShapeCasts S16x196x1
  broadcasts_S16x196x1_S16x196x512 : S16x196x1.Broadcasts S16x196x512
  reduces_S16x196x512_S16x512 : S16x196x512.Reduces [1] S16x512
  inb_S16x512_S16x512_0_0 : ∀ a, (![0, 0] : Fin 2 → Nat) a + S16x512.size a ≤ S16x512.size a
  h_S16x512 : 0 < S16x512.numel
  inb_S16x77x512_S16x77x512_0_0_0 : ∀ a, (![0, 0, 0] : Fin 3 → Nat) a + S16x77x512.size a ≤ S16x77x512.size a
  h_S16x77x512 : 0 < S16x77x512.numel
  reduces_S16x77x512_S16x77 : S16x77x512.Reduces [2] S16x77
  shapeCasts_S16x77_S16x77x1 : S16x77.ShapeCasts S16x77x1
  broadcasts_S16x77x1_S16x77x512 : S16x77x1.Broadcasts S16x77x512
  reduces_S16x77x512_S16x512 : S16x77x512.Reduces [1] S16x512
  bcast_S_S256x256 : S_.BroadcastsInDim S256x256 (![] : Fin 0 → Fin S256x256.rank)
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  concatenates_S256x1_S256x1_S256x2_d1 : Shape.Concatenates [S256x1, S256x1] S256x2 1
  reducesTo_S256_S_d0 : S256.ReducesTo [0] S_
  dot_S256x512_S256x512_S256x256_1_1_0_0_n_n_wf : DotDims.WF S256x512 S256x512 S256x256 [1] [1] [0] [0] [] []
  gather_S256x256_S256x2_S256_n_01_n_n_01_1_11_wf : GatherDims.WF S256x256 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x196x512.size a ≤ S256x196x512.size a
  hwx0_0 : ∀ i : grid0.Coords, EltTy.bits .f32 = 32 ∨ (Rect.block (s := S256x196x512) S16x196x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x77x512.size a ≤ S256x77x512.size a
  hwx0_1 : ∀ i : grid0.Coords, EltTy.bits .f32 = 32 ∨ (Rect.block (s := S256x77x512) S16x77x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S256x512.size a
  hwx0_2 : ∀ i : grid0.Coords, EltTy.bits .f32 = 32 ∨ (Rect.block (s := S256x512) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S256x512.size a
  hwx0_3 : ∀ i : grid0.Coords, EltTy.bits .f32 = 32 ∨ (Rect.block (s := S256x512) S16x512.size (cc0_transform_3 i) (hinb0_3 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

abbrev win0_0 : Pipeline.Window sig grid0 :=
  Pipeline.Window.ofSpec (Memref.whole main_arg0) S16x196x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x77x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x196x512 : Shape := ⟨3, ![256, 196, 512]⟩
abbrev S256x77x512 : Shape := ⟨3, ![256, 77, 512]⟩
abbrev S_ : Shape := ⟨0, ![]⟩
abbrev S256x196 : Shape := ⟨2, ![256, 196]⟩
abbrev S256x196x1 : Shape := ⟨3, ![256, 196, 1]⟩
abbrev S256x512 : Shape := ⟨2, ![256, 512]⟩
abbrev S256x77 : Shape := ⟨2, ![256, 77]⟩
abbrev S256x77x1 : Shape := ⟨3, ![256, 77, 1]⟩
abbrev S256x256 : Shape := ⟨2, ![256, 256]⟩
abbrev S256 : Shape := ⟨1, ![256]⟩
abbrev S256x1 : Shape := ⟨2, ![256, 1]⟩
abbrev S256x2 : Shape := ⟨2, ![256, 2]⟩

abbrev nBuf : Space → Nat
  | .hbm => 117
  | .vmem => 0
  | .smem => 0
  | _ => 0

abbrev bufTy : (tb : Table) → Fin (tcTables nBuf tb) → BufTy
  | .hbm, ⟨0, _⟩ => ⟨S256x196x512, .f32⟩
  | .hbm, ⟨1, _⟩ => ⟨S256x77x512, .f32⟩
  | .hbm, ⟨2, _⟩ => ⟨S256x196x512, .f32⟩
  | .hbm, ⟨3, _⟩ => ⟨S_, .f32⟩
  | .hbm, ⟨4, _⟩ => ⟨S256x196, .f32⟩
  | .hbm, ⟨5, _⟩ => ⟨S256x196x1, .f32⟩
  | .hbm, ⟨6, _⟩ => ⟨S256x196x1, .f32⟩
  | .hbm, ⟨7, _⟩ => ⟨S_, .f32⟩
  | .hbm, ⟨8, _⟩ => ⟨S256x196x1, .f32⟩
  | .hbm, ⟨9, _⟩ => ⟨S256x196x1, .f32⟩
  | .hbm, ⟨10, _⟩ => ⟨S256x196x512, .f32⟩
  | .hbm, ⟨11, _⟩ => ⟨S256x196x512, .f32⟩
  | .hbm, ⟨12, _⟩ => ⟨S_, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x77x512, .f32⟩
  | .hbm, ⟨18, _⟩ => ⟨S_, .f32⟩
  | .hbm, ⟨19, _⟩ => ⟨S256x77, .f32⟩
  | .hbm, ⟨20, _⟩ => ⟨S256x77x1, .f32⟩
  | .hbm, ⟨21, _⟩ => ⟨S256x77x1, .f32⟩
  | .hbm, ⟨22, _⟩ => ⟨S_, .f32⟩
  | .hbm, ⟨23, _⟩ => ⟨S256x77x1, .f32⟩
  | .hbm, ⟨24, _⟩ => ⟨S256x77x1, .f32⟩
  | .hbm, ⟨25, _⟩ => ⟨S256x77x512, .f32⟩
  | .hbm, ⟨26, _⟩ => ⟨S256x77x512, .f32⟩
  | .hbm, ⟨27, _⟩ => ⟨S_, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256, .i32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256x1, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S256, .f32⟩
  | .hbm, ⟨48, _⟩ => ⟨S256x1, .f32⟩
  | .hbm, ⟨49, _⟩ => ⟨S256x1, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S_, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256x1, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S_, .f32⟩
  | .hbm, ⟨63, _⟩ => ⟨S256, .f32⟩
  | .hbm, ⟨64, _⟩ => ⟨S256x1, .f32⟩
  | .hbm, ⟨65, _⟩ => ⟨S256x1, .f32⟩
  | .hbm, ⟨66, _⟩ => ⟨S256x256, .f32⟩
  | .hbm, ⟨67, _⟩ => ⟨S256x256, .f32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S256x1, .i32⟩
  | .hbm, ⟨83, _⟩ => ⟨S256x1, .i32⟩
  | .hbm, ⟨84, _⟩ => ⟨S256x2, .i32⟩
  | .hbm, ⟨85, _⟩ => ⟨S256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .i32⟩
  | .hbm, ⟨92, _⟩ => ⟨S256, .i32⟩
  | .hbm, ⟨93, _⟩ => ⟨S256, .i1⟩
  | .hbm, ⟨94, _⟩ => ⟨S_, .i32⟩
  | .hbm, ⟨95, _⟩ => ⟨S256, .i32⟩
  | .hbm, ⟨96, _⟩ => ⟨S256, .i32⟩
  | .hbm, ⟨97, _⟩ => ⟨S256, .i32⟩
  | .hbm, ⟨98, _⟩ => ⟨S_, .i32⟩
  | .hbm, ⟨99, _⟩ => ⟨S256, .i32⟩
  | .hbm, ⟨100, _⟩ => ⟨S256, .i1⟩
  | .hbm, ⟨101, _⟩ => ⟨S_, .i32⟩
  | .hbm, ⟨102, _⟩ => ⟨S256, .i32⟩
  | .hbm, ⟨103, _⟩ => ⟨S256, .i32⟩
  | .hbm, ⟨104, _⟩ => ⟨S256, .i32⟩
  | .hbm, ⟨105, _⟩ => ⟨S256x1, .i32⟩
  | .hbm, ⟨106, _⟩ => ⟨S256x1, .i32⟩
  | .hbm, ⟨107, _⟩ => ⟨S256x2, .i32⟩
  | .hbm, ⟨108, _⟩ => ⟨S256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S256x196x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v20 : Ref sig .tc := ⟨.hbm, 51, rfl⟩
abbrev main_v21 : Ref sig .tc := ⟨.hbm, 52, rfl⟩
abbrev main_call3_cst : Ref sig .tc := ⟨.hbm, 53, rfl⟩
abbrev main_call3_v0 : Ref sig .tc := ⟨.hbm, 54, rfl⟩
abbrev main_call3_cst_0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_cst_1 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_v22 : Ref sig .tc := ⟨.hbm, 67, rfl⟩
abbrev main_c : Ref sig .tc := ⟨.hbm, 68, rfl⟩
abbrev main_v23 : Ref sig .tc := ⟨.hbm, 69, rfl⟩
abbrev main_v24 : Ref sig .tc := ⟨.hbm, 70, rfl⟩
abbrev main_c_6 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c_7 : Ref sig .tc := ⟨.hbm, 75, rfl⟩
abbrev main_v28 : Ref sig .tc := ⟨.hbm, 76, rfl⟩
abbrev main_v29 : Ref sig .tc := ⟨.hbm, 77, rfl⟩
abbrev main_c_8 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_9 : Ref sig .tc := ⟨.hbm, 86, rfl⟩
abbrev main_v37 : Ref sig .tc := ⟨.hbm, 87, rfl⟩
abbrev main_cst_10 : Ref sig .tc := ⟨.hbm, 88, rfl⟩
abbrev main_v38 : Ref sig .tc := ⟨.hbm, 89, rfl⟩
abbrev main_v39 : Ref sig .tc := ⟨.hbm, 90, rfl⟩
abbrev main_c_11 : Ref sig .tc := ⟨.hbm, 91, rfl⟩
abbrev main_v40 : Ref sig .tc := ⟨.hbm, 92, rfl⟩
abbrev main_v41 : Ref sig .tc := ⟨.hbm, 93, rfl⟩
abbrev main_c_12 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_13 : Ref sig .tc := ⟨.hbm, 98, rfl⟩
abbrev main_v45 : Ref sig .tc := ⟨.hbm, 99, rfl⟩
abbrev main_v46 : Ref sig .tc := ⟨.hbm, 100, rfl⟩
abbrev main_c_14 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_15 : Ref sig .tc := ⟨.hbm, 109, rfl⟩
abbrev main_v54 : Ref sig .tc := ⟨.hbm, 110, rfl⟩
abbrev main_cst_16 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_cst_17 : Ref sig .tc := ⟨.hbm, 115, rfl⟩
abbrev main_v58 : Ref sig .tc := ⟨.hbm, 116, rfl⟩

abbrev nD : Nat := 1
abbrev τ : Topo := Topo.v7x

variable {F : FTy → Type} [FloatOps F]

class Facts₀ : Prop where
  reducesTo_S256x196x512_S256x196_d2 : S256x196x512.ReducesTo [2] S256x196
  h_S_ : 0 < S_.numel
  bcast_S256x196_S256x196x1_0_1 : S256x196.BroadcastsInDim S256x196x1 (![0, 1] : Fin 2 → Fin S256x196x1.rank)
  bcast_S_S256x196x1 : S_.BroadcastsInDim S256x196x1 (![] : Fin 0 → Fin S256x196x1.rank)
  bcast_S256x196x1_S256x196x512_0_1_2 : S256x196x1.BroadcastsInDim S256x196x512 (![0, 1, 2] : Fin 3 → Fin S256x196x512.rank)
  reducesTo_S256x196x512_S256x512_d1 : S256x196x512.ReducesTo [1] S256x512
  bcast_S_S256x512 : S_.BroadcastsInDim S256x512 (![] : Fin 0 → Fin S256x512.rank)
  reducesTo_S256x77x512_S256x77_d2 : S256x77x512.ReducesTo [2] S256x77
  bcast_S256x77_S256x77x1_0_1 : S256x77.BroadcastsInDim S256x77x1 (![0, 1] : Fin 2 → Fin S256x77x1.rank)
  bcast_S_S256x77x1 : S_.BroadcastsInDim S256x77x1 (![] : Fin 0 → Fin S256x77x1.rank)
  bcast_S256x77x1_S256x77x512_0_1_2 : S256x77x1.BroadcastsInDim S256x77x512 (![0, 1, 2] : Fin 3 → Fin S256x77x512.rank)
  reducesTo_S256x77x512_S256x512_d1 : S256x77x512.ReducesTo [1] S256x512
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  concatenates_S256x1_S256x1_S256x2_d1 : Shape.Concatenates [S256x1, S256x1] S256x2 1
  reducesTo_S256_S_d0 : S256.ReducesTo [0] S_
  dot_S256x512_S256x512_S256x256_1_1_0_0_n_n_wf : DotDims.WF S256x512 S256x512 S256x256 [1] [1] [0] [0] [] []
  gather_S256x256_S256x2_S256_n_01_n_n_01_1_11_wf : GatherDims.WF S256x256 S256x2 S256 [] [0, 1] [] [0, 1] [] 1 ![1, 1]

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

class Facts : Prop extends Facts₀ where

variable [Facts]
-- ==== Proof.AroundKernel.lean ====
/-
  The run of `Kernel`'s @main, at any float instance: one region — a grid of 16 points, point `t` pooling batch rows
  16·t … 16·t+15 of both sequence tensors into rows 16·t … 16·t+15 of the two pooled matrices — followed by the 85 host
  lines that turn the two pooled matrices into the logits and the loss.
  • Before the region nothing runs, so the region finds every buffer as launched (`V`).
  • The body at a point loads its two input blocks whole, and stores one value into each output block whole: what an
    output's staging buffer holds afterwards is the canon of that one store (`pooledMotion`, `pooledText`), a function of
    the point's input block alone. (The body also loads each output buffer before storing into it and uses the loaded
    value nowhere: the buffer may hold anything.)
  • The lines after the region touch only unscoped TensorCore buffers, allocate nothing, and none writes an argument or a
    pooled matrix: each writes its own result buffer, which is a different reference (`after_sub`, `after_fresh`,
    `after_keeps`).
  With these the library's frame run around a region (`Pipeline.θ_run_frame_around`) gives `run_main`: every weakly fair
  execution terminates, each pooled matrix ends at what the library computes from the blocks written back, and every
  other unscoped buffer at what the later lines compute from that state. `frame` reads the two arguments off it: an
  input window's array is never written back.
-/
import proofs.«120419_j14791867367486_2_alg».proof.Proof.Gen.Kernel.Launch
import proofs.«120419_j14791867367486_2_alg».proof.Proof.Gen.Kernel.Skeleton
import proofs.«120419_j14791867367486_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lines after the region, stretch by stretch: the similarity matrix and the logits; the first log-softmax; the
    transpose; the second log-softmax; the two diagonal means and the loss. -/
local notation "laterLines" => ([hostOps1, hostOps1_1, hostOps1_2, hostOps1_3, hostOps1_4] : List (List (HloOp τ sig (Elt F))))

variable (m : (ℓ : Loc nD τ sig) → Buf (Elt F) ℓ) (ρ : Dev nD → PrngReg)

/-! ## @main around the region -/

/-- Core `c`'s buffer contents when the region is entered: no host line runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 4000000 in
/-- @main is the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The later lines touch the pipeline's arrays and the bypassing buffers only. -/
theorem after_sub : ∀ ops ∈ laterLines, ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem after_fresh : ∀ ops ∈ laterLines, ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A line writes its own result buffer only; told apart from the four arrays of the pipeline as references. -/
local macro "own_result_only" ops:ident : tactic => `(tactic| (
  refine List.forall_iff_forall_mem.mp ?_
  simp only [$ops:ident, List.Forall, StableHlo.nullary_writes, StableHlo.unary_writes, StableHlo.binary_writes,
    StableHlo.ternary_writes, Finset.mem_singleton]
  repeat' apply And.intro
  all_goals (intro w; fin_cases w <;> exact StableHlo.devRef_ne_of_ne (by decide))))

theorem keeps1 : ∀ op ∈ (hostOps1 : List (HloOp τ sig (Elt F))), ∀ w, Proc.devRef .tc (Pipeline.arrRef spec0 w) ∉ op.writes := by
  own_result_only hostOps1
theorem keeps1_1 : ∀ op ∈ (hostOps1_1 : List (HloOp τ sig (Elt F))), ∀ w, Proc.devRef .tc (Pipeline.arrRef spec0 w) ∉ op.writes := by
  own_result_only hostOps1_1
theorem keeps1_2 : ∀ op ∈ (hostOps1_2 : List (HloOp τ sig (Elt F))), ∀ w, Proc.devRef .tc (Pipeline.arrRef spec0 w) ∉ op.writes := by
  own_result_only hostOps1_2
theorem keeps1_3 : ∀ op ∈ (hostOps1_3 : List (HloOp τ sig (Elt F))), ∀ w, Proc.devRef .tc (Pipeline.arrRef spec0 w) ∉ op.writes := by
  own_result_only hostOps1_3
theorem keeps1_4 : ∀ op ∈ (hostOps1_4 : List (HloOp τ sig (Elt F))), ∀ w, Proc.devRef .tc (Pipeline.arrRef spec0 w) ∉ op.writes := by
  own_result_only hostOps1_4

/-- And write no array of the pipeline. -/
theorem after_keeps : ∀ ops ∈ laterLines, ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

abbrev rMotion : Rect S16x196x512 := Rect.unit (s := S16x196x512) ![0, 0, 0] S16x196x512.size inb_S16x196x512_S16x196x512_0_0_0
abbrev rText : Rect S16x77x512 := Rect.unit (s := S16x77x512) ![0, 0, 0] S16x77x512.size inb_S16x77x512_S16x77x512_0_0_0
abbrev rPooled : Rect S16x512 := Rect.unit (s := S16x512) ![0, 0] S16x512.size inb_S16x512_S16x512_0_0

/-- The motion output's staging buffer after the body: its one store, of the first payload of the motion block. -/
def pooledMotion (x0 : Vec F S16x196x512 .f32) : Vec F S16x512 .f32 :=
  View.canon [⟨rPooled, k0_pay1 (View.ld x0 rMotion)⟩]
/-- The text output's staging buffer after the body: its one store, of the second payload of the text block. -/
def pooledText (x1 : Vec F S16x77x512 .f32) : Vec F S16x512 .f32 :=
  View.canon [⟨rPooled, k0_pay2 (View.ld x1 rText)⟩]

/-- One whole-block store covers the buffer. -/
theorem cover_pooled (p0 : Vec F S16x512 .f32) (y : S16x512.Idx) :
    ∃ pc ∈ ([⟨rPooled, p0⟩] : List (View.Piece (Elt F) S16x512 .f32)), y ∈ pc.1.set :=
  View.cover_of_tiled [⟨rPooled, p0⟩] S16x512.size (by rfl) y

/-! ## The body's triple -/

set_option maxHeartbeats 1000000 in
/-- The body on whole staging memrefs, the inputs' at contents `x0`, `x1` and the outputs' at anything, runs to the
    continuation holding the inputs' as they were and each output's at its pooled block. -/
theorem sound_kernel (c : Dev nD) (E : Set ℕ) (i : grid0.Coords)
    (arg1 : Memref sig .tc .vmem S16x196x512 .f32) (harg1 : arg1.IsWhole) (arg2 : Memref sig .tc .vmem S16x77x512 .f32) (harg2 : arg2.IsWhole)
    (arg3 : Memref sig .tc .vmem S16x512 .f32) (harg3 : arg3.IsWhole) (arg4 : Memref sig .tc .vmem S16x512 .f32) (harg4 : arg4.IsWhole)
    (x0 : Vec F S16x196x512 .f32) (x1 : Vec F S16x77x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (pooledMotion x0) ∗ owns (c : Thread nD τ) arg4 fullShare (pooledText x1)) -∗ K ⟨⟩))
      ⊢ wp frame (wpE (defs₀ (F := F)) Variants.none c none) E (cc0__fused_mean_l2norm_kernel i arg1 harg1 arg2 harg2 arg3 harg3 arg4 harg4) K := by
  simp only [cc0__fused_mean_l2norm_kernel_eq_skeleton]; unfold cc0__fused_mean_l2norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_pooled _)
  · iexists _; isplitr
    swap; · iexact H3
    ipureintro
    exact View.read_writes_eq_canon _ _ _ (cover_pooled _)

/-! ## The pipeline's proof data -/

/-- The proof data of the one pipeline on core `c`: the arrays as the region finds them; after the body at point `t`
    each input's buffer at its block and each output's at the pooled block of the matching input block; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pooledMotion (iblk m c 0 t)
    | ⟨3, _⟩ => pooledText (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = pooledMotion (iblk m c 0 t) := by dsimp only [dats]
theorem after0_3 (c : Dev nD) (t : Fin cfg0.N) : (dats m 0 c).after 3 t = pooledText (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates; each array of the pipeline ends
    at what the library computes from the proof data, every other unscoped buffer as the later lines leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := after_sub) (hfresh := after_fresh) (hkeep := after_keeps)
    (hmain := hmain m Variants.none) (hA := A_eq m) (hΦ := fun _ _ => rfl)

/-- The two arguments end as launched: each is an input window's array, staged and never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Kernel.Around

end
-- ==== Proof.AroundKernelIdeal.lean ====
/-
  The run of `KernelIdeal`'s @main, at any float instance: one region — a grid of 16 points, point `t` pooling batch rows
  16·t … 16·t+15 of both sequence tensors into rows 16·t … 16·t+15 of the two pooled matrices — followed by the 85 host
  lines that turn the two pooled matrices into the logits and the loss.
  • Before the region nothing runs, so the region finds every buffer as launched (`V`).
  • The body at a point loads its two input blocks whole, and stores one value into each output block whole: what an
    output's staging buffer holds afterwards is the canon of that one store (`pooledMotion`, `pooledText`), a function of
    the point's input block alone. (The body also loads each output buffer before storing into it and uses the loaded
    value nowhere: the buffer may hold anything.)
  • The lines after the region touch only unscoped TensorCore buffers, allocate nothing, and none writes an argument or a
    pooled matrix: each writes its own result buffer, which is a different reference (`after_sub`, `after_fresh`,
    `after_keeps`).
  With these the library's frame run around a region (`Pipeline.θ_run_frame_around`) gives `run_main`: every weakly fair
  execution terminates, each pooled matrix ends at what the library computes from the blocks written back, and every
  other unscoped buffer at what the later lines compute from that state. `frame` reads the two arguments off it: an
  input window's array is never written back.
-/
import proofs.«120419_j14791867367486_2_alg».proof.Proof.Gen.KernelIdeal.Launch
import proofs.«120419_j14791867367486_2_alg».proof.Proof.Gen.KernelIdeal.Skeleton
import proofs.«120419_j14791867367486_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lines after the region, stretch by stretch: the similarity matrix and the logits; the first log-softmax; the
    transpose; the second log-softmax; the two diagonal means and the loss. -/
local notation "laterLines" => ([hostOps1, hostOps1_1, hostOps1_2, hostOps1_3, hostOps1_4] : List (List (HloOp τ sig (Elt F))))

variable (m : (ℓ : Loc nD τ sig) → Buf (Elt F) ℓ) (ρ : Dev nD → PrngReg)

/-! ## @main around the region -/

/-- Core `c`'s buffer contents when the region is entered: no host line runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 4000000 in
/-- @main is the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The later lines touch the pipeline's arrays and the bypassing buffers only. -/
theorem after_sub : ∀ ops ∈ laterLines, ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem after_fresh : ∀ ops ∈ laterLines, ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A line writes its own result buffer only; told apart from the four arrays of the pipeline as references. -/
local macro "own_result_only" ops:ident : tactic => `(tactic| (
  refine List.forall_iff_forall_mem.mp ?_
  simp only [$ops:ident, List.Forall, StableHlo.nullary_writes, StableHlo.unary_writes, StableHlo.binary_writes,
    StableHlo.ternary_writes, Finset.mem_singleton]
  repeat' apply And.intro
  all_goals (intro w; fin_cases w <;> exact StableHlo.devRef_ne_of_ne (by decide))))

theorem keeps1 : ∀ op ∈ (hostOps1 : List (HloOp τ sig (Elt F))), ∀ w, Proc.devRef .tc (Pipeline.arrRef spec0 w) ∉ op.writes := by
  own_result_only hostOps1
theorem keeps1_1 : ∀ op ∈ (hostOps1_1 : List (HloOp τ sig (Elt F))), ∀ w, Proc.devRef .tc (Pipeline.arrRef spec0 w) ∉ op.writes := by
  own_result_only hostOps1_1
theorem keeps1_2 : ∀ op ∈ (hostOps1_2 : List (HloOp τ sig (Elt F))), ∀ w, Proc.devRef .tc (Pipeline.arrRef spec0 w) ∉ op.writes := by
  own_result_only hostOps1_2
theorem keeps1_3 : ∀ op ∈ (hostOps1_3 : List (HloOp τ sig (Elt F))), ∀ w, Proc.devRef .tc (Pipeline.arrRef spec0 w) ∉ op.writes := by
  own_result_only hostOps1_3
theorem keeps1_4 : ∀ op ∈ (hostOps1_4 : List (HloOp τ sig (Elt F))), ∀ w, Proc.devRef .tc (Pipeline.arrRef spec0 w) ∉ op.writes := by
  own_result_only hostOps1_4

/-- And write no array of the pipeline. -/
theorem after_keeps : ∀ ops ∈ laterLines, ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

abbrev rMotion : Rect S16x196x512 := Rect.unit (s := S16x196x512) ![0, 0, 0] S16x196x512.size inb_S16x196x512_S16x196x512_0_0_0
abbrev rText : Rect S16x77x512 := Rect.unit (s := S16x77x512) ![0, 0, 0] S16x77x512.size inb_S16x77x512_S16x77x512_0_0_0
abbrev rPooled : Rect S16x512 := Rect.unit (s := S16x512) ![0, 0] S16x512.size inb_S16x512_S16x512_0_0

/-- The motion output's staging buffer after the body: its one store, of the first payload of the motion block. -/
def pooledMotion (x0 : Vec F S16x196x512 .f32) : Vec F S16x512 .f32 :=
  View.canon [⟨rPooled, k0_pay1 (View.ld x0 rMotion)⟩]
/-- The text output's staging buffer after the body: its one store, of the second payload of the text block. -/
def pooledText (x1 : Vec F S16x77x512 .f32) : Vec F S16x512 .f32 :=
  View.canon [⟨rPooled, k0_pay2 (View.ld x1 rText)⟩]

/-- One whole-block store covers the buffer. -/
theorem cover_pooled (p0 : Vec F S16x512 .f32) (y : S16x512.Idx) :
    ∃ pc ∈ ([⟨rPooled, p0⟩] : List (View.Piece (Elt F) S16x512 .f32)), y ∈ pc.1.set :=
  View.cover_of_tiled [⟨rPooled, p0⟩] S16x512.size (by rfl) y

/-! ## The body's triple -/

set_option maxHeartbeats 1000000 in
/-- The body on whole staging memrefs, the inputs' at contents `x0`, `x1` and the outputs' at anything, runs to the
    continuation holding the inputs' as they were and each output's at its pooled block. -/
theorem sound_kernel (c : Dev nD) (E : Set ℕ) (i : grid0.Coords)
    (arg1 : Memref sig .tc .vmem S16x196x512 .f32) (harg1 : arg1.IsWhole) (arg2 : Memref sig .tc .vmem S16x77x512 .f32) (harg2 : arg2.IsWhole)
    (arg3 : Memref sig .tc .vmem S16x512 .f32) (harg3 : arg3.IsWhole) (arg4 : Memref sig .tc .vmem S16x512 .f32) (harg4 : arg4.IsWhole)
    (x0 : Vec F S16x196x512 .f32) (x1 : Vec F S16x77x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (pooledMotion x0) ∗ owns (c : Thread nD τ) arg4 fullShare (pooledText x1)) -∗ K ⟨⟩))
      ⊢ wp frame (wpE (defs₀ (F := F)) Variants.none c none) E (cc0__fused_mean_l2norm_kernel i arg1 harg1 arg2 harg2 arg3 harg3 arg4 harg4) K := by
  simp only [cc0__fused_mean_l2norm_kernel_eq_skeleton]; unfold cc0__fused_mean_l2norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_pooled _)
  · iexists _; isplitr
    swap; · iexact H3
    ipureintro
    exact View.read_writes_eq_canon _ _ _ (cover_pooled _)

/-! ## The pipeline's proof data -/

/-- The proof data of the one pipeline on core `c`: the arrays as the region finds them; after the body at point `t`
    each input's buffer at its block and each output's at the pooled block of the matching input block; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pooledMotion (iblk m c 0 t)
    | ⟨3, _⟩ => pooledText (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = pooledMotion (iblk m c 0 t) := by dsimp only [dats]
theorem after0_3 (c : Dev nD) (t : Fin cfg0.N) : (dats m 0 c).after 3 t = pooledText (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates; each array of the pipeline ends
    at what the library computes from the proof data, every other unscoped buffer as the later lines leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := after_sub) (hfresh := after_fresh) (hkeep := after_keeps)
    (hmain := hmain m Variants.none) (hA := A_eq m) (hΦ := fun _ _ => rfl)

/-- The two arguments end as launched: each is an input window's array, staged and never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Around

end
-- ==== Proof.LibRank3Layout.lean ====
/-
  Rank-3 arrays read at coordinates, for any extents and element type: what a kernel that keeps a batch of matrices
  `[a, b, c]` in one vector meets when it folds the two leading axes together for a matrix product, adds or drops a unit
  axis around a reduction that keeps its dimension, spreads a per-row or per-entry value back over the block, and reduces
  over the middle or the last axis.
  • FOLDED ROWS: `[a, b, c]` viewed as `[n, c]` with `n = a·b` and back — row `p·b + m` of the matrix is row `m` of slab `p`
    (`shapeCast_abc_nc_apply`, `shapeCast_nc_abc_apply`).
  • UNIT AXES ADDED: `[a, c] → [a, 1, c]` and `[a, b] → [a, b, 1]` (`shapeCast_ac_a1c_apply`, `shapeCast_ab_ab1_apply`).
  • SPREADS: `[a, 1, c] → [a, b, c]`, `[1, 1, c] → [a, b, c]`, `[a, b, 1] → [a, b, c]` read the operand with `0` on its unit axes
    (`broadcastTo_a1c_abc_apply`, `broadcastTo_11c_abc_apply`, `broadcastTo_ab1_abc_apply`).
  • REDUCTIONS over the extended reals: a sum over the last axis and over the middle axis as a `Fin`-indexed sum, a
    maximum over the middle axis as the fold of `max` from the starting value, on a vector unit
    (`multiReduction_add_last`, `multiReduction_add_mid`, `multiReduction_max_mid`) and for the host's
    `stablehlo.reduce` with a maximum body (`hostReduce_max_mid`).
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## The two leading axes folded into one, and unfolded -/

/-- An `[a, b, c]` array viewed as `[n, c]` (`n = a·b`) reads, at row `r = p·b + m` and column `f`, the operand at `(p, m, f)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (m : Fin b) (f : Fin c) (r : Fin n)
    (hr : r.val = p.val * b + m.val) :
    shapeCast ⟨2, ![n, c]⟩ x h (ix2 r f) = x (ix3 p m f) :=
  shapeCast_apply x h _ _ (by
    rw [Shape.rowMajor_val_three, Shape.rowMajor_val_two]
    show (p.val * b + m.val) * c + f.val = r.val * c + f.val
    rw [hr])

/-- An `[n, c]` matrix (`n = a·b`) viewed as `[a, b, c]` reads, at `(p, m, f)`, the operand at row `r = p·b + m`, column `f`. -/
theorem shapeCast_nc_abc_apply {a b c n : ℕ} (x : (⟨2, ![n, c]⟩ : Shape).Idx → α)
    (h : (⟨2, ![n, c]⟩ : Shape).ShapeCasts ⟨3, ![a, b, c]⟩) (p : Fin a) (m : Fin b) (f : Fin c) (r : Fin n)
    (hr : r.val = p.val * b + m.val) :
    shapeCast ⟨3, ![a, b, c]⟩ x h (ix3 p m f) = x (ix2 r f) :=
  shapeCast_apply x h _ _ (by
    rw [Shape.rowMajor_val_three, Shape.rowMajor_val_two]
    show r.val * c + f.val = (p.val * b + m.val) * c + f.val
    rw [hr])

/-! ## A unit axis added in the middle or at the end -/

/-- An `[a, c]` matrix cast to `[a, 1, c]` reads, at `(p, u, f)`, the operand at `(p, f)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (f : Fin c) :
    shapeCast ⟨3, ![a, 1, c]⟩ x h (ix3 p u f) = x (ix2 p f) :=
  shapeCast_apply x h _ _ (by
    have hu : u.val = 0 := by omega
    rw [Shape.rowMajor_val_three, Shape.rowMajor_val_two]
    show p.val * c + f.val = (p.val * 1 + u.val) * c + f.val
    rw [hu, Nat.mul_one, Nat.add_zero])

/-- An `[a, b]` matrix cast to `[a, b, 1]` reads, at `(p, m, u)`, the operand at `(p, m)`. -/
theorem shapeCast_ab_ab1_apply {a b : ℕ} (x : (⟨2, ![a, b]⟩ : Shape).Idx → α)
    (h : (⟨2, ![a, b]⟩ : Shape).ShapeCasts ⟨3, ![a, b, 1]⟩) (p : Fin a) (m : Fin b) (u : Fin 1) :
    shapeCast ⟨3, ![a, b, 1]⟩ x h (ix3 p m u) = x (ix2 p m) :=
  shapeCast_apply x h _ _ (by
    have hu : u.val = 0 := by omega
    rw [Shape.rowMajor_val_three, Shape.rowMajor_val_two]
    show p.val * b + m.val = (p.val * b + m.val) * 1 + u.val
    rw [hu, Nat.mul_one, Nat.add_zero])

/-! ## A value spread over the block -/

/-- An `[a, 1, c]` array spread to `[a, b, c]` reads, at `(p, m, f)`, the operand at `(p, 0, f)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (m : Fin b) (f : Fin c) :
    broadcastTo ⟨3, ![a, b, c]⟩ x h (ix3 p m f) = x (ix3 p (0 : Fin 1) f) := by
  refine broadcastTo_apply x h (ix3 p m f) (ix3 p (0 : Fin 1) f) fun ax => ?_
  match ax with
  | ⟨0, _⟩ =>
    show p.val = if a = 1 then 0 else p.val
    split
    · have := p.isLt; omega
    · rfl
  | ⟨1, _⟩ => rfl
  | ⟨2, _⟩ =>
    show f.val = if c = 1 then 0 else f.val
    split
    · have := f.isLt; omega
    · rfl

/-- A `[1, 1, c]` array spread to `[a, b, c]` reads, at `(p, m, f)`, the operand's one row at `f`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (m : Fin b) (f : Fin c) :
    broadcastTo ⟨3, ![a, b, c]⟩ x h (ix3 p m f) = x (ix3 (0 : Fin 1) (0 : Fin 1) f) := by
  refine broadcastTo_apply x h (ix3 p m f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

/-- An `[a, b, 1]` array spread to `[a, b, c]` reads, at `(p, m, f)`, the operand at `(p, m, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (m : Fin b) (f : Fin c) :
    broadcastTo ⟨3, ![a, b, c]⟩ x h (ix3 p m f) = x (ix3 p m (0 : Fin 1)) := by
  refine broadcastTo_apply x h (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ => rfl

/-! ## Reductions of a rank-3 vector over one axis, on the extended reals -/

section Reductions
variable {φ : FTy}

/-- A sum over the LAST axis of an `[a, b, c]` vector at `(p, m)` is the sum over `k` of the source at `(p, m, k)`. -/
theorem multiReduction_add_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (m : Fin b) :
    multiReduction .add [2] ⟨2, ![a, b]⟩ src acc h hφ hacc (ix2 p m) = ∑ k : Fin c, src (ix3 p m k) :=
  (Ideal.multiReduction_add_single src acc h hφ hacc (ix2 p m)).trans
    (Finset.sum_congr rfl fun k _ => congrArg src (funext fun ax => Fin.ext (by
      match ax with
      | ⟨0, _⟩ => rfl
      | ⟨1, _⟩ => rfl
      | ⟨2, _⟩ => rfl)))

/-- A sum over the MIDDLE axis of an `[a, b, c]` vector at `(p, d)` is the sum over `k` of the source at `(p, k, d)`. -/
theorem multiReduction_add_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (d : Fin c) :
    multiReduction .add [1] ⟨2, ![a, c]⟩ src acc h hφ hacc (ix2 p d) = ∑ k : Fin b, src (ix3 p k d) :=
  (Ideal.multiReduction_add_single src acc h hφ hacc (ix2 p d)).trans
    (Finset.sum_congr rfl fun k _ => congrArg src (funext fun ax => Fin.ext (by
      match ax with
      | ⟨0, _⟩ => rfl
      | ⟨1, _⟩ => rfl
      | ⟨2, _⟩ => rfl)))

/-- A maximum over the MIDDLE axis of an `[a, b, c]` vector at `(p, d)` is the fold of `max`, from the starting word's
    value, over `k` of the source at `(p, k, d)`. -/
theorem multiReduction_max_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (p : Fin a) (d : Fin c) :
    multiReduction .maximumf [1] ⟨2, ![a, c]⟩ src acc h hφ hacc (ix2 p d)
      = (Finset.univ : Finset (Fin b)).fold max (Ideal.ofBits φ acc) (fun k => src (ix3 p k d)) :=
  (Ideal.multiReduction_maximumf_single src acc h hφ hacc (ix2 p d)).trans
    (Finset.fold_congr fun k _ => congrArg src (funext fun ax => Fin.ext (by
      match ax with
      | ⟨0, _⟩ => rfl
      | ⟨1, _⟩ => rfl
      | ⟨2, _⟩ => rfl)))

/-- The host's `stablehlo.reduce` with a maximum body over the MIDDLE axis of an `[a, b, c]` array at `(p, d)`: the fold
    of `max`, from the initial value, over `k` of the operand at `(p, k, d)`. -/
theorem hostReduce_max_mid {a b c : ℕ} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (d : Fin c) :
    Host.reduce (FloatOps.maximumf (F := Ideal) (φ := φ)) x init h' hu (ix2 p d)
      = (Finset.univ : Finset (Fin b)).fold max (init (Shape.Idx.first hu)) (fun k => x (ix3 p k d)) :=
  (Host.reduce_eq_fold_single (FloatOps.maximumf (F := Ideal) (φ := φ)) x init h' h hu (ix2 p d)).trans
    (Finset.fold_congr fun k _ => congrArg x (funext fun ax => Fin.ext (by
      match ax with
      | ⟨0, _⟩ => rfl
      | ⟨1, _⟩ => rfl
      | ⟨2, _⟩ => rfl)))

end Reductions

end Cert.LibRank3

end
-- ==== Proof.PoolSpec.lean ====
/-
  The pooled embedding of one sequence, on the extended reals. A sequence is `n` rows `x s` of 512 features; each row is
  divided by the larger of its Euclidean norm `√(Σ_k (x s k)²)` and a floor `ε`, and the pooled feature `d` is the sum over
  the rows of the normalized entries, divided by the row count `cnt`. Both programs compute exactly this per batch
  element (the kernel on 16 batch elements per grid point, the reference on all 256 at once), with the same operations
  in the same order, so no law of arithmetic is needed to join them — only this common reading.
-/
import Idealize.ShloMosaic.PureOps.Ideal.Laws
import Idealize.ShloMosaic.Lib.ValueIdx

noncomputable section

open scoped BigOperators

namespace Cert.Pool

open Idealize.ShloMosaic

/-- The squared norm of a row. -/
def sumSq (r : Fin 512 → EReal) : EReal := ∑ k : Fin 512, r k * r k

/-- The pooled feature `d` of a sequence `x` of `n` rows. -/
def pooled {n : ℕ} (x : Fin n → Fin 512 → EReal) (ε cnt : EReal) (d : Fin 512) : EReal :=
  Ideal.div (∑ s : Fin n, Ideal.div (x s d) (max (Ideal.sqrt (sumSq (x s))) ε)) cnt

/-- The floor under a row's norm and the two row counts, by their words (the kernel body spells them as scalar literals,
    the reference as tensor literals of the same words). -/
abbrev epsK : EReal := Scalar.ofBits (F := Ideal) .f32 0x2B8CBCCC#32
abbrev cntMotionK : EReal := Scalar.ofBits (F := Ideal) .f32 0x43440000#32
abbrev cntTextK : EReal := Scalar.ofBits (F := Ideal) .f32 0x429A0000#32

/-- Equal rows at an equal feature give equal pooled features. -/
theorem pooled_congr {n : ℕ} {x y : Fin n → Fin 512 → EReal} {ε cnt : EReal} {d d' : Fin 512}
    (hxy : ∀ s k, x s k = y s k) (hd : d = d') : pooled x ε cnt d = pooled y ε cnt d' := by
  subst hd
  exact congrArg (fun f => pooled f ε cnt d) (funext fun s => funext fun k => hxy s k)

open Idealize.ShloMosaic.ValueIdx

/-- The pooled matrix `[256, 512]` of the motion tensor `[256, 196, 512]`: entry `(b, d)` is the pooled feature `d` of batch
    element `b`'s 196 rows. -/
def pooledMotionMat (a0 : (⟨3, ![256, 196, 512]⟩ : Shape).Idx → EReal) (ε cnt : EReal) : (⟨2, ![256, 512]⟩ : Shape).Idx → EReal :=
  fun i => pooled (fun (s : Fin 196) (k : Fin 512) => a0 (ix3 (⟨(i 0).val, (i 0).isLt⟩ : Fin 256) s k)) ε cnt
    (⟨(i 1).val, (i 1).isLt⟩ : Fin 512)

/-- The pooled matrix of the text tensor `[256, 77, 512]`, likewise over 77 rows. -/
def pooledTextMat (a1 : (⟨3, ![256, 77, 512]⟩ : Shape).Idx → EReal) (ε cnt : EReal) : (⟨2, ![256, 512]⟩ : Shape).Idx → EReal :=
  fun i => pooled (fun (s : Fin 77) (k : Fin 512) => a1 (ix3 (⟨(i 0).val, (i 0).isLt⟩ : Fin 256) s k)) ε cnt
    (⟨(i 1).val, (i 1).isLt⟩ : Fin 512)

end Cert.Pool

end
-- ==== Proof.KernelPayload.lean ====
/-
  The kernel body's two stored values read at an index, on the extended reals: entry `(p, d)` of the motion payload is the
  pooled feature `d` of the 196 rows `x0 (p, ·, ·)` of the point's motion block, and likewise the text payload over 77 rows.
  Read inside out: the squares summed over the feature axis; the unit axis added and spread back over the features do
  not move an entry's row; the quotient is taken entry by entry; the rows are summed over the middle axis; the count
  divides.
-/
import proofs.«120419_j14791867367486_2_alg».proof.Proof.Gen.KernelIdeal.Skeleton
import proofs.«120419_j14791867367486_2_alg».proof.Proof.LibRank3Layout
import proofs.«120419_j14791867367486_2_alg».proof.Proof.PoolSpec

noncomputable section

open scoped BigOperators

namespace Cert.KernelIdeal.Payload

open Cert.KernelIdeal Cert.KernelIdeal.Gen Idealize.ShloMosaic Idealize.ShloMosaic.ValueIdx Cert.LibRank3 Cert.Pool

theorem pay1_apply (x0 : Vec Ideal S16x196x512 .f32) (p : Fin 16) (d : Fin 512) :
    k0_pay1 (F := Ideal) x0 (ix2 p d) = pooled (fun (s : Fin 196) (k : Fin 512) => x0 (ix3 p s k)) epsK cntMotionK d := by
  unfold k0_pay1 pooled
  show Ideal.div _ _ = Ideal.div _ _
  refine congrArg (fun z => Ideal.div z _) ?_
  refine (multiReduction_add_mid (a := 16) (b := 196) (c := 512) _ _ _ _ _ p d).trans (Finset.sum_congr rfl fun s _ => ?_)
  show Ideal.div (x0 (ix3 p s d)) _ = Ideal.div _ _
  refine congrArg (Ideal.div _) ?_
  refine (broadcastTo_ab1_abc_apply (a := 16) (b := 196) (c := 512) _ _ p s d).trans ?_
  show max _ _ = max _ _
  refine congrArg (fun z => max z _) ?_
  show Ideal.sqrt _ = Ideal.sqrt _
  refine congrArg Ideal.sqrt ?_
  refine (shapeCast_ab_ab1_apply (a := 16) (b := 196) _ _ p s 0).trans ?_
  exact multiReduction_add_last (a := 16) (b := 196) (c := 512) _ _ _ _ _ p s

theorem pay2_apply (x1 : Vec Ideal S16x77x512 .f32) (p : Fin 16) (d : Fin 512) :
    k0_pay2 (F := Ideal) x1 (ix2 p d) = pooled (fun (s : Fin 77) (k : Fin 512) => x1 (ix3 p s k)) epsK cntTextK d := by
  unfold k0_pay2 pooled
  show Ideal.div _ _ = Ideal.div _ _
  refine congrArg (fun z => Ideal.div z _) ?_
  refine (multiReduction_add_mid (a := 16) (b := 77) (c := 512) _ _ _ _ _ p d).trans (Finset.sum_congr rfl fun s _ => ?_)
  show Ideal.div (x1 (ix3 p s d)) _ = Ideal.div _ _
  refine congrArg (Ideal.div _) ?_
  refine (broadcastTo_ab1_abc_apply (a := 16) (b := 77) (c := 512) _ _ p s d).trans ?_
  show max _ _ = max _ _
  refine congrArg (fun z => max z _) ?_
  show Ideal.sqrt _ = Ideal.sqrt _
  refine congrArg Ideal.sqrt ?_
  refine (shapeCast_ab_ab1_apply (a := 16) (b := 77) _ _ p s 0).trans ?_
  exact multiReduction_add_last (a := 16) (b := 77) (c := 512) _ _ _ _ _ p s

end Cert.KernelIdeal.Payload

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.SharedTail.lean ====
/-
  What both programs do with the two pooled matrices `a` (motion) and `b` (text), each `[256, 512]`: the similarity
  matrix `a · bᵀ` divided by the temperature gives the LOGITS `[256, 256]`; the LOSS is half the sum of two terms, each
  the negated mean over `r` of entry `(r, r)` of a row-wise log-softmax — of the logits, and of their transpose.
  The log-softmax is the printed one: the row maximum is taken from −∞ and joined with −∞ once more, the row is shifted
  by it, and the logarithm of the row sum of the exponentials is subtracted. Entry `(r, r)` is read by a gather whose
  index table pairs each row number with itself; a row number is `select(r < 0, r + 256, r)` of the iota, as printed.
  Both programs print exactly these operations with exactly these literals after they have formed `a` and `b`, so the
  certificate carries the chain as these two functions and never opens them: equal pooled matrices give equal results.
-/
import proofs.«120419_j14791867367486_2_alg».proof.Proof.Gen.KernelIdeal
import proofs.«120419_j14791867367486_2_alg».proof.Proof.LibReadThrough

noncomputable section

namespace Cert.SharedTail

open Cert.KernelIdeal Cert.KernelIdeal.Gen Idealize.ShloMosaic

variable {F : FTy → Type} [FloatOps F]

/-- The similarity matrix (rows of `a` against rows of `b`, the feature axis contracted) over the temperature. -/
def logits (a b : (⟨S256x512, .f32⟩ : BufTy).Contents (Elt F)) : (⟨S256x256, .f32⟩ : BufTy).Contents (Elt F) :=
  Host.divf (Host.dotGeneral dot_S256x512_S256x512_S256x256_1_1_0_0_n_n none a b)
    (broadcastInDim S256x256 ![] bcast_S_S256x256 (constant S_ .f32 0x3D8F5C29#32))

/-- A matrix less its row maxima. -/
def shifted (x : (⟨S256x256, .f32⟩ : BufTy).Contents (Elt F)) : (⟨S256x256, .f32⟩ : BufTy).Contents (Elt F) :=
  subf x (broadcastInDim S256x256 ![0, 1] bcast_S256x1_S256x256_0_1 (broadcastInDim S256x1 ![0] bcast_S256_S256x1_0
    (maximumf (broadcastInDim S256 ![] bcast_S_S256 (constant S_ .f32 0xFF800000#32))
      (Host.reduce FloatOps.maximumf x (constant S_ .f32 0xFF800000#32) reducesTo_S256x256_S256_d1 h_S_))))

/-- The row-wise log-softmax. -/
def logSoftmax (x : (⟨S256x256, .f32⟩ : BufTy).Contents (Elt F)) : (⟨S256x256, .f32⟩ : BufTy).Contents (Elt F) :=
  subf (shifted x) (broadcastInDim S256x256 ![0, 1] bcast_S256x1_S256x256_0_1 (Host.log (broadcastInDim S256x1 ![0] bcast_S256_S256x1_0
    (Host.reduceAdd (Host.exp (shifted x)) (constant S_ .f32 0x00000000#32) reducesTo_S256x256_S256_d1 h_S_))))

/-- The row numbers 0 … 255 as the gather's index column: `select(r < 0, r + 256, r)` of the iota. -/
def rowNumber : (⟨S256x1, .i32⟩ : BufTy).Contents (Elt F) :=
  broadcastInDim S256x1 ![0] bcast_S256_S256x1_0
    (select (cmpi .slt (iotaInDim S256 32 0) (broadcastInDim S256 ![] bcast_S_S256 (constantI S_ 32 0#32)))
      (addi (iotaInDim S256 32 0) (broadcastInDim S256 ![] bcast_S_S256 (constantI S_ 32 256#32)))
      (iotaInDim S256 32 0))

/-- The negated mean of the diagonal of `lp`, given the index table `[256, 2]` whose row `r` is `(r, r)`. -/
def negMeanAt (lp : (⟨S256x256, .f32⟩ : BufTy).Contents (Elt F)) (ix : (⟨S256x2, .i32⟩ : BufTy).Contents (Elt F)) :
    (⟨S_, .f32⟩ : BufTy).Contents (Elt F) :=
  Host.negf (Host.divf (Host.reduceAdd (Host.gather gather_S256x256_S256x2_S256_n_01_n_n_01_1_11 lp ix)
    (constant S_ .f32 0x00000000#32) reducesTo_S256_S_d0 h_S_) (constant S_ .f32 0x43800000#32))

/-- The index table: the row-number column beside itself (the two-operand concatenate along the last axis). -/
def diagIndex : (⟨S256x2, .i32⟩ : BufTy).Contents (Elt F) :=
  Cert.LibReadThrough.joinTwo S256x2 1 S256x1 S256x1 concatenates_S256x1_S256x1_S256x2_d1 (rowNumber (F := F)) (rowNumber (F := F))

/-- The loss. -/
def loss (a b : (⟨S256x512, .f32⟩ : BufTy).Contents (Elt F)) : (⟨S_, .f32⟩ : BufTy).Contents (Elt F) :=
  mulf (addf (negMeanAt (logSoftmax (logits a b)) (diagIndex (F := F)))
      (negMeanAt (logSoftmax (transpose S256x256 [1, 0] (logits a b) transposes_S256x256_S256x256_1_0)) (diagIndex (F := F))))
    (constant S_ .f32 0x3F000000#32)

end Cert.SharedTail

end
-- ==== Proof.KernelTail.lean ====
/-
  The lines after the idealized kernel's region, read as the two functions of the pooled matrices (SharedTail): from any
  buffer contents `W`, after the 85 lines the logits buffer holds `logits a b` and the loss buffer `loss a b`, where `a`
  and `b` are what `W` holds in the two pooled-matrix buffers. Each line writes its own buffer from buffers written
  before it, so the fold of the lines at a buffer is the composition of the lines' functions along the data flow.
-/
import proofs.«120419_j14791867367486_2_alg».proof.Proof.Gen.KernelIdeal.Launch
import proofs.«120419_j14791867367486_2_alg».proof.Proof.SharedTail

set_option maxRecDepth 65536

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxHeartbeats 8000000 in
/-- The logits buffer after the later lines. -/
theorem logits_read (W : Valuation τ sig (Elt F)) :
    after (List.flatten [(hostOps1 : List (HloOp τ sig (Elt F))), hostOps1_1, hostOps1_2, hostOps1_3, hostOps1_4]) W (Proc.devRef .tc main_v3)
      = Cert.SharedTail.logits (W (Proc.devRef .tc main_v0_0)) (W (Proc.devRef .tc main_v0_1)) := by
  simp only [hostOps1, hostOps1_1, hostOps1_2, hostOps1_3, hostOps1_4, List.flatten_cons, List.flatten_nil, List.append_nil,
    List.cons_append, List.nil_append]
  after_results_through
  rfl

set_option maxHeartbeats 8000000 in
/-- The loss buffer after the later lines. -/
theorem loss_read (W : Valuation τ sig (Elt F)) :
    after (List.flatten [(hostOps1 : List (HloOp τ sig (Elt F))), hostOps1_1, hostOps1_2, hostOps1_3, hostOps1_4]) W (Proc.devRef .tc main_v43)
      = Cert.SharedTail.loss (W (Proc.devRef .tc main_v0_0)) (W (Proc.devRef .tc main_v0_1)) := by
  simp only [hostOps1, hostOps1_1, hostOps1_2, hostOps1_3, hostOps1_4, List.flatten_cons, List.flatten_nil, List.append_nil,
    List.cons_append, List.nil_append]
  after_results_through
  rfl

end Cert.KernelIdeal.Tail

end
-- ==== Proof.KernelPooled.lean ====
/-
  What the idealized kernel's run leaves in its four result places, as functions of the two arguments.
  • Point `t` writes back, into rows 16·t … 16·t+15 of each pooled matrix, the pooled features of batch elements
    16·t … 16·t+15: the body's payload read at an index (KernelPayload) over the point's input block, whose entry
    `(p, s, k)` is the tensor's entry `(16·t + p, s, k)` (the index maps, decided over the 16 points).
  • The 16 row blocks cover the matrix (row `r` lies in block `r / 16`), so after the region each pooled matrix IS the
    pooled-matrix function of its argument (`pooled_motion`, `pooled_text`).
  • The later lines then leave `logits` and `loss` of the two pooled matrices in the result buffers (KernelTail), and the
    arguments are as launched (the frame).
-/
import proofs.«120419_j14791867367486_2_alg».proof.Proof.AroundKernelIdeal
import proofs.«120419_j14791867367486_2_alg».proof.Proof.KernelPayload
import proofs.«120419_j14791867367486_2_alg».proof.Proof.KernelTail
import Idealize.ShloMosaic.Lib.Pipeline.Value
import Idealize.ShloMosaic.Lib.ValueIdx

set_option maxRecDepth 16384

noncomputable section

namespace Cert.KernelIdeal.Pooled

open Cert.KernelIdeal Cert.KernelIdeal.Gen Cert.KernelIdeal.Around Cert.KernelIdeal.Payload Cert.Pool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: at point `t` each input window takes the batch block the outputs' row
    block names, whole along the other two axes; each output's row block is one of 16 and is whole along the features. -/
theorem maps : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_3.index t (0 : Fin 2) ∧ win0_1.index t (1 : Fin 3) = 0 ∧ win0_1.index t (2 : Fin 3) = 0
    ∧ win0_2.index t (1 : Fin 2) = 0 ∧ win0_2.index t (0 : Fin 2) ≤ 15
    ∧ win0_3.index t (1 : Fin 2) = 0 ∧ win0_3.index t (0 : Fin 2) ≤ 15 :=
  (by decide +kernel : ∀ t : Fin grid0.N, _)

/-- Every row block is some point's, for both outputs at once. -/
theorem rows_onto : ∀ q : Fin 16, ∃ t : Fin cfg0.N, win0_2.index t = ![q.val, 0] ∧ win0_3.index t = ![q.val, 0] :=
  (by decide +kernel : ∀ q : Fin 16, ∃ t : Fin grid0.N, win0_2.index t = ![q.val, 0] ∧ win0_3.index t = ![q.val, 0])

/-! ## The input blocks -/

/-- Entry `(p, s, k)` of point `t`'s motion block is entry `(r, s, k)` of the tensor, `r` the block's first batch row plus `p`. -/
theorem motion_block (c : Dev nD) (t : Fin cfg0.N) (p : Fin 16) (s : Fin 196) (k : Fin 512) (r : Fin 256)
    (hr : r.val = win0_0.index t (0 : Fin 3) * 16 + p.val) :
    iblk m c 0 t (ix3 p s k) = V m c main_arg0 (ix3 r s k) := by
  obtain ⟨-, a1, a2, -, b1, b2, -⟩ := maps t
  have h : ((cfg0.win 0).blk t).view.emb (ix3 p s k) = ix3 r s k := by
    funext a; apply Fin.ext
    match a with
    | ⟨0, _⟩ => show win0_0.index t (0 : Fin 3) * 16 + 1 * p.val = r.val; omega
    | ⟨1, _⟩ => show win0_0.index t (1 : Fin 3) * 196 + 1 * s.val = s.val; omega
    | ⟨2, _⟩ => show win0_0.index t (2 : Fin 3) * 512 + 1 * k.val = k.val; omega
  show V m c main_arg0 (((cfg0.win 0).blk t).view.emb (ix3 p s k)) = _
  rw [h]

/-- Entry `(p, s, k)` of point `t`'s text block is entry `(r, s, k)` of the tensor, `r` the block's first batch row plus `p`. -/
theorem text_block (c : Dev nD) (t : Fin cfg0.N) (p : Fin 16) (s : Fin 77) (k : Fin 512) (r : Fin 256)
    (hr : r.val = win0_1.index t (0 : Fin 3) * 16 + p.val) :
    iblk m c 1 t (ix3 p s k) = V m c main_arg1 (ix3 r s k) := by
  obtain ⟨-, a1, a2, -, b1, b2, -⟩ := maps t
  have h : ((cfg0.win 1).blk t).view.emb (ix3 p s k) = ix3 r s k := by
    funext a; apply Fin.ext
    match a with
    | ⟨0, _⟩ => show win0_1.index t (0 : Fin 3) * 16 + 1 * p.val = r.val; omega
    | ⟨1, _⟩ => show win0_1.index t (1 : Fin 3) * 77 + 1 * s.val = s.val; omega
    | ⟨2, _⟩ => show win0_1.index t (2 : Fin 3) * 512 + 1 * k.val = k.val; omega
  show V m c main_arg1 (((cfg0.win 1).blk t).view.emb (ix3 p s k)) = _
  rw [h]

/-! ## What a point writes back -/

/-- Point `t` writes back block `t` of the motion tensor's pooled matrix. -/
theorem flushed2_eq (c : Dev nD) (t : Fin cfg0.N) :
    (dats m 0 c).flushed 2 t = ((cfg0.win 2).blk t).view.read (Elt Ideal) (pooledMotionMat (V m c main_arg0) epsK cntMotionK) := by
  show (cfg0.win 2).cut (grid0.coords t) ((dats m 0 c).after 2 t) = _
  rw [after0_2]
  unfold pooledMotion
  rw [View.canon_unit_zero hz2]
  simp only [View.ld_unit_zero (S := S16x196x512) hz3]
  obtain ⟨e0, -, -, -, -, -, e6, -⟩ := maps t
  refine funext fun (j : S16x512.Idx) => ?_
  obtain ⟨p, d, rfl⟩ : ∃ (p : Fin 16) (d : Fin 512), j = ix2 p d := ⟨j 0, j 1, eq_ix2 j⟩
  show k0_pay1 (F := Ideal) (iblk m c 0 t) (ix2 p d)
    = pooledMotionMat (V m c main_arg0) epsK cntMotionK (((cfg0.win 2).blk t).view.emb (ix2 p d))
  refine (pay1_apply _ p d).trans ?_
  unfold pooledMotionMat
  refine pooled_congr (fun s k => motion_block m c t p s k _ ?_) (Fin.ext ?_)
  · show win0_2.index t (0 : Fin 2) * 16 + 1 * p.val = win0_0.index t (0 : Fin 3) * 16 + p.val; omega
  · show d.val = win0_2.index t (1 : Fin 2) * 512 + 1 * d.val; omega

/-- Point `t` writes back block `t` of the text tensor's pooled matrix. -/
theorem flushed3_eq (c : Dev nD) (t : Fin cfg0.N) :
    (dats m 0 c).flushed 3 t = ((cfg0.win 3).blk t).view.read (Elt Ideal) (pooledTextMat (V m c main_arg1) epsK cntTextK) := by
  show (cfg0.win 3).cut (grid0.coords t) ((dats m 0 c).after 3 t) = _
  rw [after0_3]
  unfold pooledText
  rw [View.canon_unit_zero hz2]
  simp only [View.ld_unit_zero (S := S16x77x512) hz3]
  obtain ⟨-, -, -, e3, -, -, -, -, e8, -⟩ := maps t
  refine funext fun (j : S16x512.Idx) => ?_
  obtain ⟨p, d, rfl⟩ : ∃ (p : Fin 16) (d : Fin 512), j = ix2 p d := ⟨j 0, j 1, eq_ix2 j⟩
  show k0_pay2 (F := Ideal) (iblk m c 1 t) (ix2 p d)
    = pooledTextMat (V m c main_arg1) epsK cntTextK (((cfg0.win 3).blk t).view.emb (ix2 p d))
  refine (pay2_apply _ p d).trans ?_
  unfold pooledTextMat
  refine pooled_congr (fun s k => text_block m c t p s k _ ?_) (Fin.ext ?_)
  · show win0_3.index t (0 : Fin 2) * 16 + 1 * p.val = win0_1.index t (0 : Fin 3) * 16 + p.val; omega
  · show d.val = win0_3.index t (1 : Fin 2) * 512 + 1 * d.val; omega

/-! ## The row blocks cover the matrices -/

theorem mem_blk2 (t : Fin cfg0.N) (i : S256x512.Idx) :
    i ∈ ((cfg0.win 2).blk t).view.set ↔ ∀ a : Fin 2, win0_2.index t a * S16x512.size a ≤ (i a).val ∧ (i a).val < win0_2.index t a * S16x512.size a + S16x512.size a := by
  show i ∈ ((View.whole main_v0_0).slice (win0_2.rect t)).set ↔ _
  rw [View.set_slice_whole, Rect.mem_set_unit]
  exact Iff.rfl

theorem mem_blk3 (t : Fin cfg0.N) (i : S256x512.Idx) :
    i ∈ ((cfg0.win 3).blk t).view.set ↔ ∀ a : Fin 2, win0_3.index t a * S16x512.size a ≤ (i a).val ∧ (i a).val < win0_3.index t a * S16x512.size a + S16x512.size a := by
  show i ∈ ((View.whole main_v0_1).slice (win0_3.rect t)).set ↔ _
  rw [View.set_slice_whole, Rect.mem_set_unit]
  exact Iff.rfl

/-- Row `r` of a pooled matrix lies in the block of the point whose row block is `r / 16`. -/
theorem cover2 (i : S256x512.Idx) : ∃ t : Fin cfg0.N, (cfg0.win 2).flush t = true ∧ i ∈ ((cfg0.win 2).blk t).view.set := by
  have hi0 : (i 0).val < 256 := (i 0).isLt
  have hi1 : (i 1).val < 512 := (i 1).isLt
  obtain ⟨t, ht, -⟩ := rows_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 512 ≤ (i 1).val ∧ (i 1).val < win0_2.index t (1 : Fin 2) * 512 + 512; omega

theorem cover3 (i : S256x512.Idx) : ∃ t : Fin cfg0.N, (cfg0.win 3).flush t = true ∧ i ∈ ((cfg0.win 3).blk t).view.set := by
  have hi0 : (i 0).val < 256 := (i 0).isLt
  have hi1 : (i 1).val < 512 := (i 1).isLt
  obtain ⟨t, -, ht⟩ := rows_onto ⟨(i 0).val / 16, by omega⟩
  have q0 : win0_3.index t (0 : Fin 2) = (i 0).val / 16 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 512 ≤ (i 1).val ∧ (i 1).val < win0_3.index t (1 : Fin 2) * 512 + 512; omega

/-! ## The pooled matrices after the region -/

theorem pooled_motion (c : Dev nD) :
    (dats m 0 c).arrAt 2 cfg0.N = pooledMotionMat (m ((c : Thread nD τ).loc main_arg0)) epsK cntMotionK :=
  (dats m 0 c).arrAt_eq_of_cover 2 (pooledMotionMat (V m c main_arg0) epsK cntMotionK) (fun t _ => flushed2_eq m c t) cover2

theorem pooled_text (c : Dev nD) :
    (dats m 0 c).arrAt 3 cfg0.N = pooledTextMat (m ((c : Thread nD τ).loc main_arg1)) epsK cntTextK :=
  (dats m 0 c).arrAt_eq_of_cover 3 (pooledTextMat (V m c main_arg1) epsK cntTextK) (fun t _ => flushed3_eq m c t) cover3

/-! ## The result buffers after the later lines -/

/-- What the later lines find in the two pooled-matrix buffers is what the region left there. -/
theorem exit_motion (c : Dev nD) (A : (w : Fin cfg0.W) → Buf (Elt Ideal) ((spec0 w).arr.view.loc (c.tc : Thread nD τ))) :
    Pipeline.withArrays spec0 c (V0 m c) A (Proc.devRef .tc main_v0_0) = A 2 :=
  Pipeline.withArrays_arr spec0 launch0.win.arr_inj c _ _ 2
theorem exit_text (c : Dev nD) (A : (w : Fin cfg0.W) → Buf (Elt Ideal) ((spec0 w).arr.view.loc (c.tc : Thread nD τ))) :
    Pipeline.withArrays spec0 c (V0 m c) A (Proc.devRef .tc main_v0_1) = A 3 :=
  Pipeline.withArrays_arr spec0 launch0.win.arr_inj c _ _ 3

theorem loss_after (c : Dev nD) :
    Pipeline.afterTail₀ cfgs (dats m) 0 (V0 m) [hostOps1, hostOps1_1, hostOps1_2, hostOps1_3, hostOps1_4] c main_v43
      = Cert.SharedTail.loss (pooledMotionMat (m ((c : Thread nD τ).loc main_arg0)) epsK cntMotionK)
          (pooledTextMat (m ((c : Thread nD τ).loc main_arg1)) epsK cntTextK) := by
  unfold Pipeline.afterTail₀
  refine (Tail.loss_read (F := Ideal) _).trans ?_
  rw [exit_motion, exit_text, pooled_motion, pooled_text]

theorem logits_after (c : Dev nD) :
    Pipeline.afterTail₀ cfgs (dats m) 0 (V0 m) [hostOps1, hostOps1_1, hostOps1_2, hostOps1_3, hostOps1_4] c main_v3
      = Cert.SharedTail.logits (pooledMotionMat (m ((c : Thread nD τ).loc main_arg0)) epsK cntMotionK)
          (pooledTextMat (m ((c : Thread nD τ).loc main_arg1)) epsK cntTextK) := by
  unfold Pipeline.afterTail₀
  refine (Tail.logits_read (F := Ideal) _).trans ?_
  rw [exit_motion, exit_text, pooled_motion, pooled_text]

/-! ## The run, read -/

/-- Every weakly fair execution of the idealized kernel's @main terminates with the loss and the logits at the shared
    chain's functions of the two arguments' pooled matrices, the arguments unchanged. -/
theorem run : θ_run defs (onTc (τ := τ) (main (F := Ideal))) ⟨m, fun _ => 0, ρ⟩ fun r => ∀ c : Dev nD,
      r.2.mem ((c.tc : Thread nD τ).loc main_v43)
        = Cert.SharedTail.loss (pooledMotionMat (m ((c : Thread nD τ).loc main_arg0)) epsK cntMotionK)
            (pooledTextMat (m ((c : Thread nD τ).loc main_arg1)) epsK cntTextK)
      ∧ r.2.mem ((c.tc : Thread nD τ).loc main_v3)
        = Cert.SharedTail.logits (pooledMotionMat (m ((c : Thread nD τ).loc main_arg0)) epsK cntMotionK)
            (pooledTextMat (m ((c : Thread nD τ).loc main_arg1)) epsK cntTextK)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v43 (Pipeline.mem_restRefs_of main_v43 (by decide) (by decide))).trans (loss_after m c),
     ((h c).2 main_v3 (Pipeline.mem_restRefs_of main_v3 (by decide) (by decide))).trans (logits_after m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Pooled

end
-- ==== Proof.RefBridge.lean ====
/-
  The reference read as the same two steps as the kernel: its first thirty lines form the two pooled matrices, and its
  remaining lines are the shared chain (SharedTail) applied to them.
  • `loss_eq`, `logits_eq`: the reference's stage functions of the arguments, from the similarity matrix on, are `loss` and
    `logits` of its two pooled stages — the same operations with the same literals, by unfolding the stages.
  • `motion_eq`, `text_eq`: each pooled stage at an index is the pooled feature of that batch element's rows (PoolSpec):
    the stage lemmas chained from the quotient by the count down to the squares, the host sums' zero start dropped
    (`0 + Σ = Σ`), the floor and the count spelt as the kernel spells them (the same words).
-/
import proofs.«120419_j14791867367486_2_alg».proof.Proof.RefRead
import proofs.«120419_j14791867367486_2_alg».proof.Proof.SharedTail
import proofs.«120419_j14791867367486_2_alg».proof.Proof.PoolSpec

set_option maxRecDepth 65536

noncomputable section

open scoped BigOperators

namespace Cert.ReferenceIdeal.Bridge

open Cert.ReferenceIdeal Cert.ReferenceIdeal.Gen Cert.ReferenceIdeal.Read Cert.Pool
open Idealize.ShloMosaic Idealize.ShloMosaic.ValueIdx

/-- A scalar literal of the kernel and a tensor literal of the host denote the same extended real, for any word. -/
theorem scalar_ofBits (w : BitVec 32) : Scalar.ofBits (F := Ideal) .f32 w = Ideal.ofBits .f32 w := rfl

variable {F : FTy → Type} [FloatOps F]

set_option maxHeartbeats 4000000 in
/-- From the similarity matrix on, the reference's loss stage is the shared chain's `loss` of its pooled stages. -/
theorem loss_eq (x0 : (⟨S256x196x512, .f32⟩ : BufTy).Contents (Elt F)) (x1 : (⟨S256x77x512, .f32⟩ : BufTy).Contents (Elt F)) :
    val_main_v58 (F := F) x0 x1 = Cert.SharedTail.loss (val_main_v7 (F := F) x0) (val_main_v15 (F := F) x1) := rfl

set_option maxHeartbeats 4000000 in
/-- And its logits stage the shared chain's `logits`. -/
theorem logits_eq (x0 : (⟨S256x196x512, .f32⟩ : BufTy).Contents (Elt F)) (x1 : (⟨S256x77x512, .f32⟩ : BufTy).Contents (Elt F)) :
    val_main_v18 (F := F) x0 x1 = Cert.SharedTail.logits (val_main_v7 (F := F) x0) (val_main_v15 (F := F) x1) := rfl

/-- The reference's pooled motion matrix is the pooled-matrix function of its argument: stage by stage at an index, the
    two sums' initial zero dropped, the index chains collapsed to coordinates. -/
theorem motion_eq (x0 : (⟨S256x196x512, .f32⟩ : BufTy).Contents (Elt Ideal)) :
    val_main_v7 (F := Ideal) x0 = pooledMotionMat x0 epsK cntMotionK := by
  funext i
  rw [val_main_v7_apply, val_main_v5_apply, val_main_v6_apply, val_main_cst_1_apply, val_main_cst_0_apply]
  unfold pooledMotionMat pooled
  simp only [Ideal.hostDivf_def, Ideal.ofBits_def]
  rw [Ideal.ofBits_zero_f32, zero_add]
  refine congrArg₂ Ideal.div (Finset.sum_congr rfl fun s _ => ?_) (scalar_ofBits _).symm
  rw [val_main_v4_apply, val_main_v3_apply, val_main_v2_apply, val_main_v0_apply, val_main_call0_v2_apply, val_main_call0_v1_apply, val_main_v1_apply, val_main_cst_apply, val_main_call0_cst_apply]
  simp only [Ideal.hostDivf_def, Ideal.maximumf_def, Ideal.hostUnary_sqrt_def, Ideal.ofBits_def, val_main_call0_v0_apply, Ideal.mulf_def]
  rw [Ideal.ofBits_zero_f32, zero_add]
  have e1 : idx_main_v5 i s = ix3 (⟨(i 0).val, (i 0).isLt⟩ : Fin 256) s (⟨(i 1).val, (i 1).isLt⟩ : Fin 512) :=
    funext fun a => Fin.ext (by match a with | ⟨0, _⟩ => rfl | ⟨1, _⟩ => rfl | ⟨2, _⟩ => rfl)
  have e2 : ∀ k : Fin 512, idx_main_call0_v1 (idx_main_call0_v2 (idx_main_v3 (idx_main_v5 i s))) k
      = ix3 (⟨(i 0).val, (i 0).isLt⟩ : Fin 256) s k :=
    fun k => funext fun a => Fin.ext (by match a with | ⟨0, _⟩ => rfl | ⟨1, _⟩ => rfl | ⟨2, _⟩ => rfl)
  simp only [e1, e2, sumSq, scalar_ofBits]

/-- The reference's pooled text matrix is the pooled-matrix function of its argument: stage by stage at an index, the
    two sums' initial zero dropped, the index chains collapsed to coordinates. -/
theorem text_eq (x1 : (⟨S256x77x512, .f32⟩ : BufTy).Contents (Elt Ideal)) :
    val_main_v15 (F := Ideal) x1 = pooledTextMat x1 epsK cntTextK := by
  funext i
  rw [val_main_v15_apply, val_main_v13_apply, val_main_v14_apply, val_main_cst_4_apply, val_main_cst_3_apply]
  unfold pooledTextMat pooled
  simp only [Ideal.hostDivf_def, Ideal.ofBits_def]
  rw [Ideal.ofBits_zero_f32, zero_add]
  refine congrArg₂ Ideal.div (Finset.sum_congr rfl fun s _ => ?_) (scalar_ofBits _).symm
  rw [val_main_v12_apply, val_main_v11_apply, val_main_v10_apply, val_main_v8_apply, val_main_call1_v2_apply, val_main_call1_v1_apply, val_main_v9_apply, val_main_cst_2_apply, val_main_call1_cst_apply]
  simp only [Ideal.hostDivf_def, Ideal.maximumf_def, Ideal.hostUnary_sqrt_def, Ideal.ofBits_def, val_main_call1_v0_apply, Ideal.mulf_def]
  rw [Ideal.ofBits_zero_f32, zero_add]
  have e1 : idx_main_v13 i s = ix3 (⟨(i 0).val, (i 0).isLt⟩ : Fin 256) s (⟨(i 1).val, (i 1).isLt⟩ : Fin 512) :=
    funext fun a => Fin.ext (by match a with | ⟨0, _⟩ => rfl | ⟨1, _⟩ => rfl | ⟨2, _⟩ => rfl)
  have e2 : ∀ k : Fin 512, idx_main_call1_v1 (idx_main_call1_v2 (idx_main_v11 (idx_main_v13 i s))) k
      = ix3 (⟨(i 0).val, (i 0).isLt⟩ : Fin 256) s k :=
    fun k => funext fun a => Fin.ext (by match a with | ⟨0, _⟩ => rfl | ⟨1, _⟩ => rfl | ⟨2, _⟩ => rfl)
  simp only [e1, e2, sumSq, scalar_ofBits]

end Cert.ReferenceIdeal.Bridge

end
-- ==== Proof.lean ====
/-
  The kernel pools two sequence tensors inside one Pallas region — for each of 256 batch elements, every row of the
  motion tensor `[256, 196, 512]` and of the text tensor `[256, 77, 512]` is divided by the larger of its Euclidean norm and
  a floor, and the normalized rows are averaged — and then, on the host, forms the similarity matrix of the two pooled
  matrices over a temperature (the logits) and a symmetric cross-entropy of it (the loss). The reference does the same
  pooling with whole-array jnp operations and then runs the very same host lines.

  On the extended reals the two agree operation for operation: a row's squared norm is the same finite sum, the square
  root, the floor, the quotient and the mean are the same exact operations with the same literal words, and a sum over
  the rows of one batch element does not care that the kernel visits the batch 16 elements at a time. So no law of
  arithmetic beyond `0 + x = x` (the host sums start from a zero the vector sums do not show) is used, and the
  precondition is never opened. The proof is therefore bookkeeping around one common reading:
  • `PoolSpec`: the pooled feature of a sequence, and the pooled matrix of a tensor, as plain functions.
  • `KernelPayload`, `KernelPooled`: the kernel body's stored values are pooled features of its block; the 16 row blocks
    written back cover each pooled matrix, so after the region it is the pooled matrix of its argument.
  • `SharedTail`, `KernelTail`: the 85 later lines as two functions `logits`, `loss` of the pooled matrices, never opened.
  • `RefBridge`: the reference's pooled stages are the same pooled matrices, and its remaining stages the same two functions.
  • `AroundKernel`, `AroundKernelIdeal`: each kernel program's run — the region, then the later lines — terminates,
    faults nowhere and leaves the arguments as launched; the reference's frame is its run with the results dropped.
  `preserves` is trivial: the idealization rewrote nothing.
-/
import proofs.«120419_j14791867367486_2_alg».proof.Defs
import proofs.«120419_j14791867367486_2_alg».proof.Proof.Gen.Kernel
import proofs.«120419_j14791867367486_2_alg».proof.Proof.Gen.KernelIdeal
import proofs.«120419_j14791867367486_2_alg».proof.Proof.Gen.ReferenceIdeal
import proofs.«120419_j14791867367486_2_alg».proof.Proof.Gen.Pre_finite_inputs
import proofs.«120419_j14791867367486_2_alg».proof.Proof.AroundKernel
import proofs.«120419_j14791867367486_2_alg».proof.Proof.KernelPooled
import proofs.«120419_j14791867367486_2_alg».proof.Proof.RefBridge

noncomputable section

namespace Cert.Proof

open Idealize.ShloMosaic Idealize.ShloMosaic.TcCoe Idealize.SL.Sem Cert.Pool

theorem frame_k : Cert.frame_Kernel := fun m ρ _ => Cert.Kernel.Around.frame m ρ

theorem frame_ki : Cert.frame_KernelIdeal := fun m ρ _ => Cert.KernelIdeal.Around.frame m ρ

/-- The reference has no region: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the loss at `loss` and the logits at `logits` of the two arguments' pooled matrices. -/
theorem algebraic : Cert.algebraic_KernelIdeal_ReferenceIdeal := by
  intro m ρ m' ρ' _ hagree
  refine ⟨fun c => Cert.SharedTail.loss
        (pooledMotionMat (m ((c : Thread Cert.KernelIdeal.nD Cert.KernelIdeal.τ).loc Cert.KernelIdeal.main_arg0)) epsK cntMotionK)
        (pooledTextMat (m ((c : Thread Cert.KernelIdeal.nD Cert.KernelIdeal.τ).loc Cert.KernelIdeal.main_arg1)) epsK cntTextK),
      fun c => Cert.SharedTail.logits
        (pooledMotionMat (m ((c : Thread Cert.KernelIdeal.nD Cert.KernelIdeal.τ).loc Cert.KernelIdeal.main_arg0)) epsK cntMotionK)
        (pooledTextMat (m ((c : Thread Cert.KernelIdeal.nD Cert.KernelIdeal.τ).loc Cert.KernelIdeal.main_arg1)) epsK cntTextK),
      Cert.KernelIdeal.Pooled.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v58_eq, Cert.ReferenceIdeal.Bridge.loss_eq, Cert.ReferenceIdeal.Bridge.motion_eq,
      Cert.ReferenceIdeal.Bridge.text_eq, (hagree c).1, (hagree c).2]
  · rw [(h c).2.1, Cert.ReferenceIdeal.Read.val_main_v18_eq, Cert.ReferenceIdeal.Bridge.logits_eq, Cert.ReferenceIdeal.Bridge.motion_eq,
      Cert.ReferenceIdeal.Bridge.text_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
